-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x2048 : Shape := ⟨4, ![2, 16, 2048, 2048]⟩
abbrev S2x1x2048x2048 : Shape := ⟨4, ![2, 1, 2048, 2048]⟩
abbrev S1x16x2048x2048 : Shape := ⟨4, ![1, 16, 2048, 2048]⟩
abbrev S_ : Shape := ⟨0, ![]⟩

class Facts : Prop where
  bcast_S_S2x16x2048x2048 : S_.BroadcastsInDim S2x16x2048x2048 (![] : Fin 0 → Fin S2x16x2048x2048.rank)
  reducesTo_S2x16x2048x2048_S_d0_1_2_3 : S2x16x2048x2048.ReducesTo [0, 1, 2, 3] S_
  h_S_ : 0 < S_.numel
  bcast_S_S1x16x2048x2048 : S_.BroadcastsInDim S1x16x2048x2048 (![] : Fin 0 → Fin S1x16x2048x2048.rank)
  reducesTo_S1x16x2048x2048_S_d0_1_2_3 : S1x16x2048x2048.ReducesTo [0, 1, 2, 3] S_
  bcast_S_S2x1x2048x2048 : S_.BroadcastsInDim S2x1x2048x2048 (![] : Fin 0 → Fin S2x1x2048x2048.rank)
  reducesTo_S2x1x2048x2048_S_d0_1_2_3 : S2x1x2048x2048.ReducesTo [0, 1, 2, 3] S_

variable [Facts]

def fn {F : FTy → Type} [FloatOps F] (main_arg0 : FVec F S2x16x2048x2048 .f32) (main_arg1 : IVec S2x1x2048x2048 32) (main_arg2 : FVec F S1x16x2048x2048 .f32) : IVec S_ 1 :=
  let main_v0 : FVec F S2x16x2048x2048 .f32 := Host.absf main_arg0
  let main_cst : FVec F S_ .f32 := constant S_ .f32 0x7F800000#32
  let main_v1 : FVec F S2x16x2048x2048 .f32 := broadcastInDim S2x16x2048x2048 ![] bcast_S_S2x16x2048x2048 main_cst
  let main_v2 : IVec S2x16x2048x2048 1 := cmpf .olt main_v0 main_v1
  let main_c : IVec S_ 1 := constantI S_ 1 1#1
  let main_v3 : IVec S_ 1 := (fun x v => Host.reduce IntOp.andi x v reducesTo_S2x16x2048x2048_S_d0_1_2_3 h_S_) main_v2 main_c
  let main_v4 : FVec F S1x16x2048x2048 .f32 := Host.absf main_arg2
  let main_cst_0 : FVec F S_ .f32 := constant S_ .f32 0x7F800000#32
  let main_v5 : FVec F S1x16x2048x2048 .f32 := broadcastInDim S1x16x2048x2048 ![] bcast_S_S1x16x2048x2048 main_cst_0
  let main_v6 : IVec S1x16x2048x2048 1 := cmpf .olt main_v4 main_v5
  let main_c_1 : IVec S_ 1 := constantI S_ 1 1#1
  let main_v7 : IVec S_ 1 := (fun x v => Host.reduce IntOp.andi x v reducesTo_S1x16x2048x2048_S_d0_1_2_3 h_S_) main_v6 main_c_1
  let main_v8 : IVec S_ 1 := andi main_v3 main_v7
  let main_c_2 : IVec S_ 32 := constantI S_ 32 0#32
  let main_v9 : IVec S2x1x2048x2048 32 := broadcastInDim S2x1x2048x2048 ![] bcast_S_S2x1x2048x2048 main_c_2
  let main_v10 : IVec S2x1x2048x2048 1 := cmpi .eq main_arg1 main_v9
  let main_c_3 : IVec S_ 32 := constantI S_ 32 1#32
  let main_v11 : IVec S2x1x2048x2048 32 := broadcastInDim S2x1x2048x2048 ![] bcast_S_S2x1x2048x2048 main_c_3
  let main_v12 : IVec S2x1x2048x2048 1 := cmpi .eq main_arg1 main_v11
  let main_v13 : IVec S2x1x2048x2048 1 := ori main_v10 main_v12
  let main_c_4 : IVec S_ 1 := constantI S_ 1 1#1
  let main_v14 : IVec S_ 1 := (fun x v => Host.reduce IntOp.andi x v reducesTo_S2x1x2048x2048_S_d0_1_2_3 h_S_) main_v13 main_c_4
  let main_v15 : IVec S_ 1 := andi main_v8 main_v14
  main_v15
-- ==== Kernel.lean ====
abbrev S2x16x2048x2048 : Shape := ⟨4, ![2, 16, 2048, 2048]⟩
abbrev S2x1x2048x2048 : Shape := ⟨4, ![2, 1, 2048, 2048]⟩
abbrev S1x16x2048x2048 : Shape := ⟨4, ![1, 16, 2048, 2048]⟩
abbrev S1x1x512x2048 : Shape := ⟨4, ![1, 1, 512, 2048]⟩
abbrev S1x1x512 : Shape := ⟨3, ![1, 1, 512]⟩
abbrev S1x1x512x1 : Shape := ⟨4, ![1, 1, 512, 1]⟩

abbrev nBuf : Space → Nat
  | .hbm => 4
  | .vmem => 8
  | .smem => 0
  | _ => 0

abbrev bufTy : (tb : Table) → Fin (tcTables nBuf tb) → BufTy
  | .hbm, ⟨0, _⟩ => ⟨S2x16x2048x2048, .f32⟩
  | .hbm, ⟨1, _⟩ => ⟨S2x1x2048x2048, .i32⟩
  | .hbm, ⟨2, _⟩ => ⟨S1x16x2048x2048, .f32⟩
  | .hbm, ⟨3, _⟩ => ⟨S2x16x2048x2048, .f32⟩
  | .local _ .vmem, ⟨0, _⟩ => ⟨S1x1x512x2048, .f32⟩
  | .local _ .vmem, ⟨1, _⟩ => ⟨S1x1x512x2048, .f32⟩
  | .local _ .vmem, ⟨2, _⟩ => ⟨S1x1x512x2048, .i32⟩
  | .local _ .vmem, ⟨3, _⟩ => ⟨S1x1x512x2048, .i32⟩
  | .local _ .vmem, ⟨4, _⟩ => ⟨S1x1x512x2048, .f32⟩
  | .local _ .vmem, ⟨5, _⟩ => ⟨S1x1x512x2048, .f32⟩
  | .local _ .vmem, ⟨6, _⟩ => ⟨S1x1x512x2048, .f32⟩
  | .local _ .vmem, ⟨7, _⟩ => ⟨S1x1x512x2048, .f32⟩
  | _, _ => ⟨S2x16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  reduces_S1x1x512x2048_S1x1x512 : S1x1x512x2048.Reduces [3] S1x1x512
  shapeCasts_S1x1x512_S1x1x512x1 : S1x1x512.ShapeCasts S1x1x512x1
  broadcasts_S1x1x512x1_S1x1x512x2048 : S1x1x512x1.Broadcasts S1x1x512x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x2048.size a ≤ S2x16x2048x2048.size a
  hwx0_0 : ∀ i : grid0.Coords, EltTy.bits .f32 = 32 ∨ (Rect.block (s := S2x16x2048x2048) S1x1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x2048.size a ≤ S2x1x2048x2048.size a
  hwx0_1 : ∀ i : grid0.Coords, EltTy.bits .i32 = 32 ∨ (Rect.block (s := S2x1x2048x2048) S1x1x512x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x2048.size a ≤ S1x16x2048x2048.size a
  hwx0_2 : ∀ i : grid0.Coords, EltTy.bits .f32 = 32 ∨ (Rect.block (s := S1x16x2048x2048) S1x1x512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S2x16x2048x2048.size a
  hwx0_3 : ∀ i : grid0.Coords, EltTy.bits .f32 = 32 ∨ (Rect.block (s := S2x16x2048x2048) S1x1x512x2048.size (cc0_transform_3 i) (hinb0_3 i)).WholeWords (EltTy.packing .f32)

variable [Facts₀]

abbrev win0_0 : Pipeline.Window sig grid0 :=
  Pipeline.Window.ofSpec (Memref.whole main_arg0) S1x1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x16x2048x2048 : Shape := ⟨4, ![2, 16, 2048, 2048]⟩
abbrev S2x1x2048x2048 : Shape := ⟨4, ![2, 1, 2048, 2048]⟩
abbrev S1x16x2048x2048 : Shape := ⟨4, ![1, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S2x16x2048x2048, .f32⟩
  | .hbm, ⟨1, _⟩ => ⟨S2x1x2048x2048, .i32⟩
  | .hbm, ⟨2, _⟩ => ⟨S1x16x2048x2048, .f32⟩
  | .hbm, ⟨3, _⟩ => ⟨S2x16x2048x2048, .f32⟩
  | .hbm, ⟨4, _⟩ => ⟨S2x16x2048x2048, .f32⟩
  | .hbm, ⟨5, _⟩ => ⟨S2x1x2048x2048, .f32⟩
  | .hbm, ⟨6, _⟩ => ⟨S_, .f32⟩
  | .hbm, ⟨7, _⟩ => ⟨S2x1x2048x2048, .f32⟩
  | .hbm, ⟨8, _⟩ => ⟨S2x1x2048x2048, .f32⟩
  | .hbm, ⟨9, _⟩ => ⟨S2x1x2048x2048, .f32⟩
  | .hbm, ⟨10, _⟩ => ⟨S_, .f32⟩
  | .hbm, ⟨11, _⟩ => ⟨S2x16x2048x2048, .f32⟩
  | .hbm, ⟨12, _⟩ => ⟨S2x16x2048x2048, .f32⟩
  | .hbm, ⟨13, _⟩ => ⟨S2x16x2048x2048, .f32⟩
  | .hbm, ⟨14, _⟩ => ⟨S2x16x2048x2048, .f32⟩
  | .hbm, ⟨15, _⟩ => ⟨S2x1x2048x2048, .f32⟩
  | .hbm, ⟨16, _⟩ => ⟨S_, .f32⟩
  | .hbm, ⟨17, _⟩ => ⟨S2x1x2048x2048, .f32⟩
  | .hbm, ⟨18, _⟩ => ⟨S2x1x2048x2048, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S_, .f32⟩
  | .hbm, ⟨24, _⟩ => ⟨S2x16x2048, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S2x16x2048x1, .f32⟩
  | .hbm, ⟨33, _⟩ => ⟨S2x16x2048x2048, .f32⟩
  | .hbm, ⟨34, _⟩ => ⟨S2x16x2048x2048, .f32⟩
  | _, _ => ⟨S2x16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  bcast_S1x16x2048x2048_S2x16x2048x2048_0_1_2_3 : S1x16x2048x2048.BroadcastsInDim S2x16x2048x2048 (![0, 1, 2, 3] : Fin 4 → Fin S2x16x2048x2048.rank)
  bcast_S_S2x1x2048x2048 : S_.BroadcastsInDim S2x1x2048x2048 (![] : Fin 0 → Fin S2x1x2048x2048.rank)
  bcast_S_S2x16x2048x2048 : S_.BroadcastsInDim S2x16x2048x2048 (![] : Fin 0 → Fin S2x16x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)

variable [Facts₀]

class Facts : Prop extends Facts₀ where

variable [Facts]
-- ==== Proof.MaskedSoftmax.lean ====
/-
  The mathematics of the masked row softmax, with no program in sight.

  Three arrays: `X` of shape [2, 16, 2048, 2048] (batch, head, query row, key column), an integer mask `M` of shape
  [2, 1, 2048, 2048] shared by the sixteen heads, and a bias `B` of shape [1, 16, 2048, 2048] shared by the two batches.
  The entry (b, h, q, k) of the masked, scaled logits is the constant `-1e10` where the mask word at (b, 0, q, k) is not
  zero and `(X + B) · scale` elsewhere; the result is the softmax of each row (b, h, q, ·) of these logits: the exponential of
  the entry minus the row's maximum, divided by the sum over the row of those exponentials.

  The same logit can be written arithmetically, `(1 - M) · ((X + B) · scale) + M · (-1e10)` with the mask word read as a
  number. For a mask word that is 0 or 1 the two spellings agree on every extended real (`select_eq_arith`): at 0 the
  second summand is `0 · c = 0` and the first factor is `1`; at 1 the first summand is `0 · l = 0` (also when `l` is infinite,
  by the extended reals' convention) and the second is the constant itself.
-/
import Idealize.ShloMosaic.PureOps.Ideal
import Idealize.ShloMosaic.PureOps.Ideal.Laws
import Idealize.ShloMosaic.Lib.ValueIdx

noncomputable section

namespace Cert.MaskedSoftmax

open Idealize.ShloMosaic Idealize.ShloMosaic.ValueIdx

/-- The shapes of the three arrays: logits, mask, bias. -/
abbrev SX : Shape := ⟨4, ![2, 16, 2048, 2048]⟩
abbrev SM : Shape := ⟨4, ![2, 1, 2048, 2048]⟩
abbrev SB : Shape := ⟨4, ![1, 16, 2048, 2048]⟩

/-- One masked, scaled logit from the mask word and the two summands: the fill `-1e10` where the mask word is not zero,
    `(x + bias) · scale` elsewhere (`scale` the f32 nearest to 1/√128; both constants kept as their f32 words). -/
def mlogit (w : BitVec 32) (x bias : EReal) : EReal :=
  Scalar.select (IntOp.cmpi .ne w 0#32) (Ideal.ofBits .f32 0xD01502F9#32) ((x + bias) * Ideal.ofBits .f32 0x3DB504F3#32)

/-- A row's maximum: the fold of `max` from `-∞` (kept as its f32 word) over the row's 2048 entries. -/
def rowMax (f : Fin 2048 → EReal) : EReal := (Finset.univ : Finset (Fin 2048)).fold max (Ideal.ofBits .f32 0xFF800000#32) f

/-- The softmax of a row at column `k`: `exp (f k - max f) / ∑ k', exp (f k' - max f)`. -/
def softmaxRow (f : Fin 2048 → EReal) (k : Fin 2048) : EReal :=
  Ideal.div (Ideal.exp (f k - rowMax f)) (∑ k' : Fin 2048, Ideal.exp (f k' - rowMax f))

/-- Row (b, h, q) of the masked logits: the mask is read at head 0, the bias at batch 0. -/
def rowLogit (X : SX.Idx → EReal) (M : SM.Idx → BitVec 32) (B : SB.Idx → EReal) (b : Fin 2) (h : Fin 16) (q : Fin 2048) :
    Fin 2048 → EReal :=
  fun k => mlogit (M (ix4 b 0 q k)) (X (ix4 b h q k)) (B (ix4 0 h q k))

/-- THE RESULT: at (b, h, q, k) the softmax of row (b, h, q) of the masked logits, at column k. -/
def G (X : SX.Idx → EReal) (M : SM.Idx → BitVec 32) (B : SB.Idx → EReal) : SX.Idx → EReal :=
  fun i => softmaxRow (rowLogit X M B (i 0) (i 1) (i 2)) (i 3)

theorem G_ix4 (X : SX.Idx → EReal) (M : SM.Idx → BitVec 32) (B : SB.Idx → EReal) (b : Fin 2) (h : Fin 16) (q k : Fin 2048) :
    G X M B (ix4 b h q k) = softmaxRow (rowLogit X M B b h q) k := rfl

/-- The f32 words of one and of minus infinity denote `1` and `⊥`. -/
theorem ofBits_one_f32 : Ideal.ofBits .f32 0x3F800000#32 = 1 := IdealRules.sign_bit.ideal_onePat .f32
theorem ofBits_neg_inf_f32 : Ideal.ofBits .f32 0xFF800000#32 = ⊥ := by simp [Ideal.ofBits, Ideal.ieee]

/-- THE LAW joining the two spellings of a masked logit: for a mask word that is 0 or 1, read as a number `μ`,
    `(1 - μ) · l + μ · c` is `c` where the word is not zero and `l` where it is — on every extended real `l`, `c`. -/
theorem select_eq_arith (w : BitVec 32) (hw : w = 0#32 ∨ w = 1#32) (l c : EReal) :
    (Ideal.ofBits .f32 0x3F800000#32 - ((w.toInt : ℝ) : EReal)) * l + ((w.toInt : ℝ) : EReal) * c
      = Scalar.select (IntOp.cmpi .ne w 0#32) c l := by
  rw [ofBits_one_f32]
  rcases hw with rfl | rfl
  · have h0 : IntOp.cmpi .ne (0#32 : BitVec 32) 0#32 = 0#1 := by decide
    rw [h0, select_zero]
    have : (((0#32 : BitVec 32).toInt : ℝ) : EReal) = 0 := by norm_num
    rw [this, sub_zero, one_mul, zero_mul, add_zero]
  · have h1 : IntOp.cmpi .ne (1#32 : BitVec 32) 0#32 = 1#1 := by decide
    rw [h1, select_one]
    have : (((1#32 : BitVec 32).toInt : ℝ) : EReal) = 1 := by norm_num
    have h11 : (1 : EReal) - 1 = 0 := by
      rw [← EReal.coe_one, ← EReal.coe_sub, sub_self, EReal.coe_zero]
    rw [this, h11, zero_mul, one_mul, zero_add]

/-- `max` with `-∞` in front changes nothing. -/
theorem max_neg_inf (x : EReal) : max (Ideal.ofBits .f32 0xFF800000#32) x = x := by
  rw [ofBits_neg_inf_f32]; exact max_eq_right bot_le

end Cert.MaskedSoftmax

end
-- ==== Proof.MaskDomain.lean ====
/-
  What the precondition says of the mask: every mask word is 0 or 1.

  The precondition is the conjunction of three whole-array tests; the third is `all ((mask == 0) | (mask == 1))`: an
  `and`-reduction, over every index, of the one-bit word `(mask == 0) or (mask == 1)`. If the conjunction is 1 so is the third
  test, so the one-bit word is 1 at every index, so one of the two equalities holds there.
-/
import proofs.«124857_j81570018885750_2_alg».proof.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal

noncomputable section

namespace Cert.Pre_finite_inputs.MaskDomain

open Cert.Pre_finite_inputs Idealize.ShloMosaic

/-- Under the precondition every mask word is 0 or 1. -/
theorem mask_zero_one [Facts] (x0 : FVec Ideal S2x16x2048x2048 .f32) (x1 : IVec S2x1x2048x2048 32)
    (x2 : FVec Ideal S1x16x2048x2048 .f32) (h : fn (F := Ideal) x0 x1 x2 = fun _ => 1#1) (j : S2x1x2048x2048.Idx) :
    x1 j = 0#32 ∨ x1 j = 1#32 := by
  have e := congrFun h ValueIdx.ix0
  dsimp only [fn] at e
  have e' : IntOp.andi _ _ = 1#1 := e
  obtain ⟨-, e14⟩ := IntOp.andi_eq_one.1 e'
  haveI : Subsingleton S_.Idx := ⟨fun a b => funext fun d => d.elim0⟩
  have ej := Host.reduce_andi_all _ _ _ _ _ e14 j
  have ej' : IntOp.ori _ _ = 1#1 := ej
  have b0 : broadcastInDim S2x1x2048x2048 ![] Facts.bcast_S_S2x1x2048x2048 (constantI S_ 32 0#32) j = 0#32 :=
    broadcastInDim_apply _ Facts.bcast_S_S2x1x2048x2048 (constantI S_ 32 0#32) j ValueIdx.ix0 (fun a => a.elim0)
  have b1 : broadcastInDim S2x1x2048x2048 ![] Facts.bcast_S_S2x1x2048x2048 (constantI S_ 32 1#32) j = 1#32 :=
    broadcastInDim_apply _ Facts.bcast_S_S2x1x2048x2048 (constantI S_ 32 1#32) j ValueIdx.ix0 (fun a => a.elim0)
  rcases IntOp.ori_eq_one.1 ej' with h0 | h1
  · exact Or.inl ((IntOp.cmpi_eq.1 h0).trans b0)
  · exact Or.inr ((IntOp.cmpi_eq.1 h1).trans b1)

end Cert.Pre_finite_inputs.MaskDomain

end
-- ==== Proof.RefSoftmax.lean ====
/-
  The reference computes the masked row softmax `Cert.MaskedSoftmax.G`, for a mask of zeros and ones.

  Stage by stage: the masked logits are written arithmetically, `(1 - mask) · ((x + bias) · scale) + mask · (-1e10)`, with the
  mask converted to a float and broadcast over the heads and the bias broadcast over the batches; for a mask word 0 or 1
  that is the selected form (`select_eq_arith`). The row maximum is a fold of `max` from `-∞` over the last axis, then one
  more `max` with `-∞`, which changes nothing; the row sum is `0 +` the sum over the last axis; the two keepdims
  broadcasts read the row's value back at every column.
-/
import proofs.«124857_j81570018885750_2_alg».proof.Proof.Gen.ReferenceIdeal.Read
import proofs.«124857_j81570018885750_2_alg».proof.Proof.MaskedSoftmax
import Idealize.ShloMosaic.Lib.ValueIdx
import Idealize.ShloMosaic.PureOps.Ideal.Laws

noncomputable section

namespace Cert.ReferenceIdeal.RefSoftmax

open Cert.ReferenceIdeal Cert.ReferenceIdeal.Gen Cert.ReferenceIdeal.Read Cert.MaskedSoftmax
open Idealize.ShloMosaic Idealize.ShloMosaic.ValueIdx

variable (X : (⟨S2x16x2048x2048, .f32⟩ : BufTy).Contents (Elt Ideal)) (M : (⟨S2x1x2048x2048, .i32⟩ : BufTy).Contents (Elt Ideal))
  (B : (⟨S1x16x2048x2048, .f32⟩ : BufTy).Contents (Elt Ideal))

/-- The masked logits at (b, h, q, k): the arithmetic spelling is the selected one when the mask word is 0 or 1. -/
theorem logits_apply (hM : ∀ j, M j = 0#32 ∨ M j = 1#32) (b : Fin 2) (h : Fin 16) (q k : Fin 2048) :
    val_main_v14 (F := Ideal) X M B (ix4 b h q k) = rowLogit X M B b h q k := by
  have e8 : idx_main_v8 (ix4 b h q k) = ix4 b 0 q k :=
    funext fun a => Fin.ext (by match a with | ⟨0, _⟩ => rfl | ⟨1, _⟩ => rfl | ⟨2, _⟩ => rfl | ⟨3, _⟩ => rfl)
  have e13 : idx_main_v13 (ix4 b h q k) = ix4 b 0 q k :=
    funext fun a => Fin.ext (by match a with | ⟨0, _⟩ => rfl | ⟨1, _⟩ => rfl | ⟨2, _⟩ => rfl | ⟨3, _⟩ => rfl)
  have e0 : idx_main_v0 (ix4 b h q k) = ix4 0 h q k :=
    funext fun a => Fin.ext (by match a with | ⟨0, _⟩ => rfl | ⟨1, _⟩ => rfl | ⟨2, _⟩ => rfl | ⟨3, _⟩ => rfl)
  rw [val_main_v14_apply, val_main_v9_apply, val_main_v8_apply, val_main_v5_apply, val_main_v4_apply, val_main_v3_apply,
    val_main_cst_apply, val_main_v2_apply, val_main_v7_apply, val_main_v1_apply, val_main_v0_apply, val_main_v6_apply,
    val_main_cst_0_apply, val_main_v13_apply, val_main_v12_apply, val_main_v10_apply, val_main_v11_apply,
    val_main_cst_1_apply, e8, e13, e0]
  exact select_eq_arith _ (hM _) _ _

/-- The row maximum at (b, h, q). -/
theorem rowmax_apply (hM : ∀ j, M j = 0#32 ∨ M j = 1#32) (b : Fin 2) (h : Fin 16) (q : Fin 2048) :
    val_main_v17 (F := Ideal) X M B (ix3 b h q) = rowMax (rowLogit X M B b h q) := by
  have hr : S2x16x2048x2048.Reduces [3] S2x16x2048 := by decide
  rw [val_main_v17_apply, val_main_v16_apply, val_main_cst_3_apply]
  unfold val_main_v15
  rw [Host.reduce_eq_fold_single (FloatOps.maximumf (F := Ideal) (φ := .f32)) _ _ reducesTo_S2x16x2048x2048_S2x16x2048_d3 hr h_S_ (ix3 b h q)]
  have hk : ∀ k : Fin 2048, val_main_v14 (F := Ideal) X M B (hr.lift (ix3 b h q) k) = rowLogit X M B b h q k := by
    intro k
    have e : hr.lift (ix3 b h q) k = ix4 b h q k :=
      funext fun a => Fin.ext (by match a with | ⟨0, _⟩ => rfl | ⟨1, _⟩ => rfl | ⟨2, _⟩ => rfl | ⟨3, _⟩ => rfl)
    rw [e, logits_apply X M B hM]
  rw [show (val_main_v14 (F := Ideal) X M B ∘ hr.lift (ix3 b h q)) = rowLogit X M B b h q from funext hk]
  exact max_neg_inf _

/-- The exponentials at (b, h, q, k). -/
theorem exps_apply (hM : ∀ j, M j = 0#32 ∨ M j = 1#32) (b : Fin 2) (h : Fin 16) (q k : Fin 2048) :
    val_main_v21 (F := Ideal) X M B (ix4 b h q k)
      = Ideal.exp (rowLogit X M B b h q k - rowMax (rowLogit X M B b h q)) := by
  have e : idx_main_v18 (idx_main_v19 (ix4 b h q k)) = ix3 b h q :=
    funext fun a => Fin.ext (by match a with | ⟨0, _⟩ => rfl | ⟨1, _⟩ => rfl | ⟨2, _⟩ => rfl)
  rw [val_main_v21_apply, val_main_v20_apply, logits_apply X M B hM, val_main_v19_apply, val_main_v18_apply, e,
    rowmax_apply X M B hM]
  rfl

/-- The row sum of the exponentials at (b, h, q). -/
theorem rowsum_apply (hM : ∀ j, M j = 0#32 ∨ M j = 1#32) (b : Fin 2) (h : Fin 16) (q : Fin 2048) :
    val_main_v22 (F := Ideal) X M B (ix3 b h q)
      = ∑ k : Fin 2048, Ideal.exp (rowLogit X M B b h q k - rowMax (rowLogit X M B b h q)) := by
  rw [val_main_v22_apply, val_main_cst_4_apply]
  show Ideal.ofBits .f32 0x00000000#32 + _ = _
  rw [Ideal.ofBits_zero_f32, zero_add]
  refine Finset.sum_congr rfl fun k _ => ?_
  have e : idx_main_v22 (ix3 b h q) k = ix4 b h q k :=
    funext fun a => Fin.ext (by match a with | ⟨0, _⟩ => rfl | ⟨1, _⟩ => rfl | ⟨2, _⟩ => rfl | ⟨3, _⟩ => rfl)
  rw [e, exps_apply X M B hM]

/-- THE REFERENCE'S RESULT is the masked row softmax, for a mask of zeros and ones. -/
theorem result_eq (hM : ∀ j, M j = 0#32 ∨ M j = 1#32) : val_main_v25 (F := Ideal) X M B = G X M B := by
  funext i
  obtain ⟨b, h, q, k, rfl⟩ : ∃ (b : Fin 2) (h : Fin 16) (q k : Fin 2048), i = ix4 b h q k := ⟨i 0, i 1, i 2, i 3, eq_ix4 i⟩
  have e : idx_main_v23 (idx_main_v24 (ix4 b h q k)) = ix3 b h q :=
    funext fun a => Fin.ext (by match a with | ⟨0, _⟩ => rfl | ⟨1, _⟩ => rfl | ⟨2, _⟩ => rfl)
  rw [G_ix4, val_main_v25_apply, exps_apply X M B hM, val_main_v24_apply, val_main_v23_apply, e, rowsum_apply X M B hM]
  rfl

end Cert.ReferenceIdeal.RefSoftmax

end
-- ==== Proof.BlockSoftmax.lean ====
/-
  One grid point of the kernel: what the body leaves in its output block, read at (0, 0, r, k).

  A block is [1, 1, 512, 2048]: 512 query rows of one (batch, head) pair, each with all 2048 key columns. The body forms the
  masked logits of the block pointwise (the fill where the mask word is not zero, `(x + bias) · scale` elsewhere), takes each
  row's maximum over the columns, subtracts it, exponentiates, sums each row over the columns and divides. Both row
  reductions keep a unit column axis and are broadcast back along the columns, so at (0, 0, r, k) they read the value of
  row r. Hence the block's entry (0, 0, r, k) is the softmax, at column k, of row r of the block's masked logits.
-/
import proofs.«124857_j81570018885750_2_alg».proof.Proof.Gen.KernelIdeal.Value
import proofs.«124857_j81570018885750_2_alg».proof.Proof.MaskedSoftmax
import Idealize.ShloMosaic.Lib.ValueIdx
import Idealize.ShloMosaic.Lib.Pipeline.Value
import Idealize.ShloMosaic.PureOps.Ideal.Laws

noncomputable section

namespace Cert.KernelIdeal.BlockSoftmax

open Cert.KernelIdeal Cert.KernelIdeal.Gen Cert.MaskedSoftmax
open Idealize.ShloMosaic Idealize.ShloMosaic.TcCoe Idealize.SL.Sem Idealize.ShloMosaic.ValueIdx

/-- A per-row value with a unit column axis appended and broadcast along the 2048 columns, read at (0, 0, r, k), is the
    value of row r. -/
theorem keepdims_apply (u : FVec Ideal S1x1x512 .f32) (r : Fin 512) (k : Fin 2048) :
    broadcastTo S1x1x512x2048 (shapeCast S1x1x512x1 u shapeCasts_S1x1x512_S1x1x512x1) broadcasts_S1x1x512x1_S1x1x512x2048
        (ix4 0 0 r k) = u (ix3 0 0 r) := by
  refine (broadcastTo_apply _ _ (ix4 0 0 r k) (ix4 0 0 r 0 : S1x1x512x1.Idx) (fun a => match a with
    | ⟨0, _⟩ => by show 0 = (if (1 : Nat) = 1 then 0 else _); rw [if_pos rfl]
    | ⟨1, _⟩ => by show 0 = (if (1 : Nat) = 1 then 0 else _); rw [if_pos rfl]
    | ⟨2, _⟩ => by show r.val = (if (512 : Nat) = 1 then 0 else r.val); rw [if_neg (by decide)]
    | ⟨3, _⟩ => by show 0 = (if (1 : Nat) = 1 then 0 else _); rw [if_pos rfl])).trans ?_
  exact shapeCast_apply _ _ (ix4 0 0 r 0 : S1x1x512x1.Idx) (ix3 0 0 r) (by
    rw [Shape.rowMajor_val_three, Shape.rowMajor_val_four]
    show (0 * 1 + 0) * 512 + r.val = ((0 * 1 + 0) * 512 + r.val) * 1 + 0
    omega)

/-- The maximum over the columns, at row r: the fold of `max` from `-∞` over the row's entries. -/
theorem lane_max (v : FVec Ideal S1x1x512x2048 .f32) (r : Fin 512) :
    multiReduction .maximumf [3] S1x1x512 v 0xFF800000#32 reduces_S1x1x512x2048_S1x1x512 (.inl rfl) rfl (ix3 0 0 r)
      = rowMax (fun k => v (ix4 0 0 r k)) := by
  refine (Ideal.multiReduction_maximumf_single v 0xFF800000#32 reduces_S1x1x512x2048_S1x1x512 (.inl rfl) rfl (ix3 0 0 r)).trans ?_
  have hk : ∀ k : Fin 2048, v (reduces_S1x1x512x2048_S1x1x512.lift (ix3 0 0 r) k) = v (ix4 0 0 r k) := fun k =>
    congrArg v (funext fun a => Fin.ext (by match a with | ⟨0, _⟩ => rfl | ⟨1, _⟩ => rfl | ⟨2, _⟩ => rfl | ⟨3, _⟩ => rfl))
  rw [show (v ∘ reduces_S1x1x512x2048_S1x1x512.lift (ix3 0 0 r)) = (fun k : Fin 2048 => v (ix4 0 0 r k)) from funext hk]
  rfl

/-- The sum over the columns, at row r. -/
theorem lane_sum (v : FVec Ideal S1x1x512x2048 .f32) (r : Fin 512) :
    multiReduction .add [3] S1x1x512 v 0x00000000#32 reduces_S1x1x512x2048_S1x1x512 (.inl rfl) rfl (ix3 0 0 r)
      = ∑ k : Fin 2048, v (ix4 0 0 r k) := by
  refine (Ideal.multiReduction_add_single v 0x00000000#32 reduces_S1x1x512x2048_S1x1x512 (.inl rfl) rfl (ix3 0 0 r)).trans ?_
  exact Finset.sum_congr rfl fun (k : Fin 2048) _ =>
    congrArg v (funext fun a => Fin.ext (by match a with | ⟨0, _⟩ => rfl | ⟨1, _⟩ => rfl | ⟨2, _⟩ => rfl | ⟨3, _⟩ => rfl))

section block

variable (P0 : Vec Ideal S1x1x512x2048 .i32) (P1 P2 : Vec Ideal S1x1x512x2048 .f32)

set_option quotPrecheck false

/- The block's masked logits, its row maxima, the exponentials and their row sums, as the body's vector terms. -/
local notation "logitV" => (select (cmpi .ne P0 (broadcast S1x1x512x2048 0#32)) (broadcast S1x1x512x2048 (Scalar.ofBits .f32 0xD01502F9#32)) (mulf (addf P1 P2) (broadcast S1x1x512x2048 (Scalar.ofBits .f32 0x3DB504F3#32))) : FVec Ideal S1x1x512x2048 .f32)
local notation "maxV" => (multiReduction .maximumf [3] S1x1x512 logitV 0xFF800000#32 reduces_S1x1x512x2048_S1x1x512 (.inl rfl) rfl : FVec Ideal S1x1x512 .f32)
local notation "expV" => (exp (subf logitV (broadcastTo S1x1x512x2048 (shapeCast S1x1x512x1 maxV shapeCasts_S1x1x512_S1x1x512x1) broadcasts_S1x1x512x1_S1x1x512x2048)) : FVec Ideal S1x1x512x2048 .f32)
local notation "sumV" => (multiReduction .add [3] S1x1x512 expV 0x00000000#32 reduces_S1x1x512x2048_S1x1x512 (.inl rfl) rfl : FVec Ideal S1x1x512 .f32)

/-- Row r of the block's masked logits. -/
abbrev blockRow (r : Fin 512) : Fin 2048 → EReal := fun k => mlogit (P0 (ix4 0 0 r k)) (P1 (ix4 0 0 r k)) (P2 (ix4 0 0 r k))

theorem logitV_apply (z : S1x1x512x2048.Idx) : logitV z = mlogit (P0 z) (P1 z) (P2 z) := rfl

theorem maxV_apply (r : Fin 512) : maxV (ix3 0 0 r) = rowMax (blockRow P0 P1 P2 r) :=
  lane_max logitV r

theorem expV_apply (r : Fin 512) (k : Fin 2048) :
    expV (ix4 0 0 r k) = Ideal.exp (blockRow P0 P1 P2 r k - rowMax (blockRow P0 P1 P2 r)) := by
  show Ideal.exp (logitV (ix4 0 0 r k) - (broadcastTo S1x1x512x2048 (shapeCast S1x1x512x1 maxV shapeCasts_S1x1x512_S1x1x512x1) broadcasts_S1x1x512x1_S1x1x512x2048) (ix4 0 0 r k)) = _
  rw [keepdims_apply, maxV_apply]
  rfl

theorem sumV_apply (r : Fin 512) :
    sumV (ix3 0 0 r) = ∑ k : Fin 2048, Ideal.exp (blockRow P0 P1 P2 r k - rowMax (blockRow P0 P1 P2 r)) :=
  (lane_sum expV r).trans (Finset.sum_congr rfl fun k _ => expV_apply P0 P1 P2 r k)

/-- The body's block function at (0, 0, r, k): the softmax of row r of the block's masked logits, at column k. -/
theorem E3_apply (r : Fin 512) (k : Fin 2048) :
    Value.E3 (F := Ideal) P0 P1 P2 (ix4 0 0 r k) = softmaxRow (blockRow P0 P1 P2 r) k := by
  have e0 : Value.ix3_0 (ix4 0 0 r k : S1x1x512x2048.Idx) = ix4 0 0 r k :=
    funext fun a => Fin.ext (by match a with | ⟨0, _⟩ => rfl | ⟨1, _⟩ => rfl | ⟨2, _⟩ => rfl | ⟨3, _⟩ => rfl)
  have e1 : Value.ix3_1 (ix4 0 0 r k : S1x1x512x2048.Idx) = ix4 0 0 r k :=
    funext fun a => Fin.ext (by match a with | ⟨0, _⟩ => rfl | ⟨1, _⟩ => rfl | ⟨2, _⟩ => rfl | ⟨3, _⟩ => rfl)
  have e2 : Value.ix3_2 (ix4 0 0 r k : S1x1x512x2048.Idx) = ix4 0 0 r k :=
    funext fun a => Fin.ext (by match a with | ⟨0, _⟩ => rfl | ⟨1, _⟩ => rfl | ⟨2, _⟩ => rfl | ⟨3, _⟩ => rfl)
  have e3 : Value.ix3_3 (ix4 0 0 r k : S1x1x512x2048.Idx) = ix3 0 0 r :=
    funext fun a => Fin.ext (by match a with | ⟨0, _⟩ => rfl | ⟨1, _⟩ => rfl | ⟨2, _⟩ => rfl)
  have e4 : Value.ix3_4 (ix4 0 0 r k : S1x1x512x2048.Idx) = ix3 0 0 r :=
    funext fun a => Fin.ext (by match a with | ⟨0, _⟩ => rfl | ⟨1, _⟩ => rfl | ⟨2, _⟩ => rfl)
  show Ideal.div (Ideal.exp (mlogit (P0 (Value.ix3_0 (ix4 0 0 r k))) (P1 (Value.ix3_1 (ix4 0 0 r k))) (P2 (Value.ix3_2 (ix4 0 0 r k)))
      - maxV (Value.ix3_3 (ix4 0 0 r k)))) (sumV (Value.ix3_4 (ix4 0 0 r k))) = _
  rw [e0, e1, e2, e3, e4, maxV_apply, sumV_apply]
  rfl

end block

theorem hz : (![0, 0, 0, 0] : Fin 4 → Nat) = fun _ => 0 := funext fun a => by fin_cases a <;> rfl

/-- What the body leaves in the output block, from the three input blocks (logits, mask, bias), at (0, 0, r, k). -/
theorem out_apply (x0 : Vec Ideal S1x1x512x2048 .f32) (x1 : Vec Ideal S1x1x512x2048 .i32) (x2 : Vec Ideal S1x1x512x2048 .f32)
    (r : Fin 512) (k : Fin 2048) :
    out0_3 x0 x1 x2 (ix4 0 0 r k) = softmaxRow (blockRow x1 x0 x2 r) k := by
  unfold out0_3
  rw [Value.canon3_eq]
  simp only [View.ld_unit_zero (S := S1x1x512x2048) hz]
  exact E3_apply x1 x0 x2 r k

end Cert.KernelIdeal.BlockSoftmax

end
-- ==== Proof.ArraySoftmax.lean ====
/-
  From the grid's blocks to the whole result array.

  The grid has 2 · 4 · 16 = 128 points (batch b, row block j, head h). At a point the logits' block and the output's block are
  rows 512·j … 512·j + 511 of the (b, h) slice; the mask's block is the same rows of the (b, 0) slice (one mask for all heads);
  the bias's block the same rows of the (0, h) slice (one bias for both batches). A softmax row lies inside one block, so
  what a point writes back is its block of the one whole-array function `Cert.MaskedSoftmax.G` of the three argument arrays;
  the 128 output blocks tile the array (row q of slice (b, h) is in the block of point (b, q / 512, h)), so the array ends at `G`.
-/
import proofs.«124857_j81570018885750_2_alg».proof.Proof.Gen.KernelIdeal.Value
import proofs.«124857_j81570018885750_2_alg».proof.Proof.MaskedSoftmax
import proofs.«124857_j81570018885750_2_alg».proof.Proof.BlockSoftmax
import Idealize.ShloMosaic.Lib.ValueIdx
import Idealize.ShloMosaic.Lib.Pipeline.Value

noncomputable section

namespace Cert.KernelIdeal.ArraySoftmax

open Cert.KernelIdeal Cert.KernelIdeal.Gen Cert.MaskedSoftmax Cert.KernelIdeal.BlockSoftmax
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps, decided over the 128 grid points: the output's block index is (b, h, j, 0) within its ranges, the
    logits' is the same, the mask's is (b, 0, j, 0) and the bias's (0, h, j, 0). -/
theorem idx_facts : ∀ t : Fin cfg0.N,
    win0_3.index t (0 : Fin 4) < 2 ∧ win0_3.index t (1 : Fin 4) < 16 ∧ win0_3.index t (2 : Fin 4) < 4 ∧ win0_3.index t (3 : Fin 4) = 0
    ∧ win0_0.index t (0 : Fin 4) = win0_3.index t (0 : Fin 4) ∧ win0_0.index t (1 : Fin 4) = win0_3.index t (1 : Fin 4)
    ∧ win0_0.index t (2 : Fin 4) = win0_3.index t (2 : Fin 4) ∧ win0_0.index t (3 : Fin 4) = 0
    ∧ win0_1.index t (0 : Fin 4) = win0_3.index t (0 : Fin 4) ∧ win0_1.index t (1 : Fin 4) = 0
    ∧ win0_1.index t (2 : Fin 4) = win0_3.index t (2 : Fin 4) ∧ win0_1.index t (3 : Fin 4) = 0
    ∧ win0_2.index t (0 : Fin 4) = 0 ∧ win0_2.index t (1 : Fin 4) = win0_3.index t (1 : Fin 4)
    ∧ win0_2.index t (2 : Fin 4) = win0_3.index t (2 : Fin 4) ∧ win0_2.index t (3 : Fin 4) = 0 :=
  (by decide +kernel : ∀ t : Fin grid0.N, _)

/-- Every (batch, head, row block) is some grid point's output block. -/
theorem idx_onto : ∀ (b : Fin 2) (h : Fin 16) (j : Fin 4), ∃ t : Fin cfg0.N, win0_3.index t = ![b.val, h.val, j.val, 0] :=
  (by decide +kernel : ∀ (b : Fin 2) (h : Fin 16) (j : Fin 4), ∃ t : Fin grid0.N, win0_3.index t = ![b.val, h.val, j.val, 0])

/-- The logits' block at a point whose block index is (b, h, j, 0), read at (0, 0, r, k): the logits at (b, h, 512·j + r, k). -/
theorem logits_block (c : Dev nD) (t : Fin cfg0.N) (b : Fin 2) (h : Fin 16) (j : Fin 4)
    (e0 : win0_0.index t (0 : Fin 4) = b.val) (e1 : win0_0.index t (1 : Fin 4) = h.val)
    (e2 : win0_0.index t (2 : Fin 4) = j.val) (e3 : win0_0.index t (3 : Fin 4) = 0) (r : Fin 512) (k : Fin 2048) :
    iblk m c 0 t (ix4 0 0 r k)
      = V m c main_arg0 (ix4 b h (⟨j.val * 512 + r.val, by have := j.isLt; have := r.isLt; omega⟩ : Fin 2048) k) := by
  show V m c main_arg0 (((cfg0.win 0).blk t).view.emb (ix4 0 0 r k)) = _
  refine congrArg (V m c main_arg0) (funext fun a => Fin.ext ?_)
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 512 + 1 * r.val = j.val * 512 + r.val; omega
  | ⟨3, _⟩ => show win0_0.index t (3 : Fin 4) * 2048 + 1 * k.val = k.val; omega

/-- The mask's block at a point whose block index is (b, 0, j, 0), read at (0, 0, r, k): the mask at (b, 0, 512·j + r, k). -/
theorem mask_block (c : Dev nD) (t : Fin cfg0.N) (b : Fin 2) (j : Fin 4)
    (e0 : win0_1.index t (0 : Fin 4) = b.val) (e1 : win0_1.index t (1 : Fin 4) = 0)
    (e2 : win0_1.index t (2 : Fin 4) = j.val) (e3 : win0_1.index t (3 : Fin 4) = 0) (r : Fin 512) (k : Fin 2048) :
    iblk m c 1 t (ix4 0 0 r k)
      = V m c main_arg1 (ix4 b 0 (⟨j.val * 512 + r.val, by have := j.isLt; have := r.isLt; omega⟩ : Fin 2048) k) := by
  show V m c main_arg1 (((cfg0.win 1).blk t).view.emb (ix4 0 0 r k)) = _
  refine congrArg (V m c main_arg1) (funext fun a => Fin.ext ?_)
  match a with
  | ⟨0, _⟩ => show win0_1.index t (0 : Fin 4) * 1 + 1 * 0 = b.val; omega
  | ⟨1, _⟩ => show win0_1.index t (1 : Fin 4) * 1 + 1 * 0 = 0; omega
  | ⟨2, _⟩ => show win0_1.index t (2 : Fin 4) * 512 + 1 * r.val = j.val * 512 + r.val; omega
  | ⟨3, _⟩ => show win0_1.index t (3 : Fin 4) * 2048 + 1 * k.val = k.val; omega

/-- The bias's block at a point whose block index is (0, h, j, 0), read at (0, 0, r, k): the bias at (0, h, 512·j + r, k). -/
theorem bias_block (c : Dev nD) (t : Fin cfg0.N) (h : Fin 16) (j : Fin 4)
    (e0 : win0_2.index t (0 : Fin 4) = 0) (e1 : win0_2.index t (1 : Fin 4) = h.val)
    (e2 : win0_2.index t (2 : Fin 4) = j.val) (e3 : win0_2.index t (3 : Fin 4) = 0) (r : Fin 512) (k : Fin 2048) :
    iblk m c 2 t (ix4 0 0 r k)
      = V m c main_arg2 (ix4 0 h (⟨j.val * 512 + r.val, by have := j.isLt; have := r.isLt; omega⟩ : Fin 2048) k) := by
  show V m c main_arg2 (((cfg0.win 2).blk t).view.emb (ix4 0 0 r k)) = _
  refine congrArg (V m c main_arg2) (funext fun a => Fin.ext ?_)
  match a with
  | ⟨0, _⟩ => show win0_2.index t (0 : Fin 4) * 1 + 1 * 0 = 0; omega
  | ⟨1, _⟩ => show win0_2.index t (1 : Fin 4) * 1 + 1 * 0 = h.val; omega
  | ⟨2, _⟩ => show win0_2.index t (2 : Fin 4) * 512 + 1 * r.val = j.val * 512 + r.val; omega
  | ⟨3, _⟩ => show win0_2.index t (3 : Fin 4) * 2048 + 1 * k.val = k.val; omega

/-- ONE POINT, over variables: if the three input blocks are rows 512·j … of the slices (b, h), (b, 0), (0, h) of the arrays,
    the body's output block at (0, 0, r, k) is `G` at (b, h, 512·j + r, k) — a softmax row lies inside the block. -/
theorem point_eq (X : SX.Idx → EReal) (M : SM.Idx → BitVec 32) (B : SB.Idx → EReal)
    (x0 : Vec Ideal S1x1x512x2048 .f32) (x1 : Vec Ideal S1x1x512x2048 .i32) (x2 : Vec Ideal S1x1x512x2048 .f32)
    (b : Fin 2) (h : Fin 16) (j : Fin 4) (r : Fin 512)
    (h0 : ∀ k : Fin 2048, x0 (ix4 0 0 r k) = X (ix4 b h (⟨j.val * 512 + r.val, by have := j.isLt; have := r.isLt; omega⟩ : Fin 2048) k))
    (h1 : ∀ k : Fin 2048, x1 (ix4 0 0 r k) = M (ix4 b 0 (⟨j.val * 512 + r.val, by have := j.isLt; have := r.isLt; omega⟩ : Fin 2048) k))
    (h2 : ∀ k : Fin 2048, x2 (ix4 0 0 r k) = B (ix4 0 h (⟨j.val * 512 + r.val, by have := j.isLt; have := r.isLt; omega⟩ : Fin 2048) k))
    (k : Fin 2048) :
    out0_3 x0 x1 x2 (ix4 0 0 r k)
      = G X M B (ix4 b h (⟨j.val * 512 + r.val, by have := j.isLt; have := r.isLt; omega⟩ : Fin 2048) k) := by
  rw [out_apply, G_ix4]
  refine congrArg (fun f => softmaxRow f k) (funext fun k' => ?_)
  show mlogit (x1 (ix4 0 0 r k')) (x0 (ix4 0 0 r k')) (x2 (ix4 0 0 r k')) = mlogit _ _ _
  rw [h0, h1, h2]

/-- WHAT POINT `t` WRITES BACK is block `t` of `G` of the argument arrays. -/
theorem flushed_eq (c : Dev nD) (t : Fin cfg0.N) :
    (dats m 0 c).flushed 3 t
      = ((cfg0.win 3).blk t).view.read (Elt Ideal) (G (V m c main_arg0) (V m c main_arg1) (V m c main_arg2)) := by
  rw [Value.flushed3]
  obtain ⟨f0, f1, f2, f3, a0, a1, a2, a3, b0, b1, b2, b3, c0, c1, c2, c3⟩ := idx_facts t
  funext y
  have hy0 : (y 0).val < 1 := (y 0).isLt
  have hy1 : (y 1).val < 1 := (y 1).isLt
  have hy2 : (y 2).val < 512 := (y 2).isLt
  have hy3 : (y 3).val < 2048 := (y 3).isLt
  have hy : (y : S1x1x512x2048.Idx) = ix4 0 0 (⟨(y 2).val, hy2⟩ : Fin 512) (⟨(y 3).val, hy3⟩ : Fin 2048) := by
    funext a; apply Fin.ext
    match a with
    | ⟨0, _⟩ => show (y 0).val = 0; omega
    | ⟨1, _⟩ => show (y 1).val = 0; omega
    | ⟨2, _⟩ => rfl
    | ⟨3, _⟩ => rfl
  have hemb : ((cfg0.win 3).blk t).view.emb y
      = ix4 (⟨win0_3.index t (0 : Fin 4), f0⟩ : Fin 2) (⟨win0_3.index t (1 : Fin 4), f1⟩ : Fin 16)
          (⟨win0_3.index t (2 : Fin 4) * 512 + (y 2).val, by omega⟩ : Fin 2048) (⟨(y 3).val, hy3⟩ : Fin 2048) := by
    funext a; apply Fin.ext
    match a with
    | ⟨0, _⟩ => show win0_3.index t (0 : Fin 4) * 1 + 1 * (y 0).val = win0_3.index t (0 : Fin 4); omega
    | ⟨1, _⟩ => show win0_3.index t (1 : Fin 4) * 1 + 1 * (y 1).val = win0_3.index t (1 : Fin 4); omega
    | ⟨2, _⟩ => show win0_3.index t (2 : Fin 4) * 512 + 1 * (y 2).val = win0_3.index t (2 : Fin 4) * 512 + (y 2).val; omega
    | ⟨3, _⟩ => show win0_3.index t (3 : Fin 4) * 2048 + 1 * (y 3).val = (y 3).val; omega
  have key := point_eq (V m c main_arg0) (V m c main_arg1) (V m c main_arg2) (iblk m c 0 t) (iblk m c 1 t) (iblk m c 2 t)
    (⟨win0_3.index t (0 : Fin 4), f0⟩ : Fin 2) (⟨win0_3.index t (1 : Fin 4), f1⟩ : Fin 16) (⟨win0_3.index t (2 : Fin 4), f2⟩ : Fin 4)
    (⟨(y 2).val, hy2⟩ : Fin 512)
    (fun k => logits_block m c t _ _ _ a0 a1 a2 a3 _ k)
    (fun k => mask_block m c t _ _ b0 b1 b2 b3 _ k)
    (fun k => bias_block m c t _ _ c0 c1 c2 c3 _ k)
    (⟨(y 3).val, hy3⟩ : Fin 2048)
  show out0_3 (iblk m c 0 t) (iblk m c 1 t) (iblk m c 2 t) y
    = G (V m c main_arg0) (V m c main_arg1) (V m c main_arg2) (((cfg0.win 3).blk t).view.emb y)
  exact (congrArg (out0_3 (iblk m c 0 t) (iblk m c 1 t) (iblk m c 2 t)) hy).trans
    (key.trans (congrArg (G (V m c main_arg0) (V m c main_arg1) (V m c main_arg2)) hemb.symm))

/-- An index of the array is in point `t`'s output block iff each coordinate is in the block's range on its axis. -/
theorem mem_blk (t : Fin cfg0.N) (i : S2x16x2048x2048.Idx) :
    i ∈ ((cfg0.win 3).blk t).view.set ↔ ∀ a : Fin 4, win0_3.index t a * S1x1x512x2048.size a ≤ (i a).val
      ∧ (i a).val < win0_3.index t a * S1x1x512x2048.size a + S1x1x512x2048.size a := by
  show i ∈ ((View.whole main_v0).slice (win0_3.rect t)).set ↔ _
  rw [View.set_slice_whole, Rect.mem_set_unit]
  exact Iff.rfl

/-- THE BLOCKS TILE THE ARRAY: (b, h, q, k) is in the block of the point whose block index is (b, h, q / 512, 0). -/
theorem cover (i : S2x16x2048x2048.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 512, by omega⟩
  have q0 : win0_3.index t (0 : Fin 4) = (i 0).val := congrFun ht 0
  have q1 : win0_3.index t (1 : Fin 4) = (i 1).val := congrFun ht 1
  have q2 : win0_3.index t (2 : Fin 4) = (i 2).val / 512 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 512 ≤ (i 2).val ∧ (i 2).val < win0_3.index t (2 : Fin 4) * 512 + 512; omega
  | ⟨3, _⟩ => show win0_3.index t (3 : Fin 4) * 2048 ≤ (i 3).val ∧ (i 3).val < win0_3.index t (3 : Fin 4) * 2048 + 2048; omega

/-- THE ARRAY after the run is `G` of the argument arrays. -/
theorem final (c : Dev nD) :
    (dats m 0 c).arrAt 3 cfg0.N
      = G (m ((c : Thread nD τ).loc main_arg0)) (m ((c : Thread nD τ).loc main_arg1)) (m ((c : Thread nD τ).loc main_arg2)) :=
  (dats m 0 c).arrAt_eq_of_cover 3 (G (V m c main_arg0) (V m c main_arg1) (V m c main_arg2))
    (fun t _ => flushed_eq m c t) cover

/-- The kernel's run, read: the result array at the masked row softmax of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArraySoftmax

end
-- ==== Proof.lean ====
/-
  A masked attention softmax over f32[2, 16, 2048, 2048] logits, with an additive bias f32[1, 16, 2048, 2048] shared by the
  batches and an integer mask i32[2, 1, 2048, 2048] shared by the heads: the kernel against its jnp reference, as extended reals.

  Both programs take the softmax, along the last axis, of masked and scaled logits. The kernel selects: the fill `-1e10`
  where the mask word is not zero, `(x + bias) · scale` elsewhere. The reference computes
  `(1 - mask) · ((x + bias) · scale) + mask · (-1e10)` with the mask converted to a float. For a mask of zeros and ones — the
  precondition says so — the two logits are one extended real at every position (`Cert.MaskedSoftmax.select_eq_arith`; no
  finiteness is needed: `0 · l = 0` also for an infinite `l`). From there the two programs apply the same row softmax
  (maximum over the row from `-∞`, exponential of the difference, sum over the row, quotient), the reference with one more
  `max` against `-∞` and its sum started from `0`, which change nothing.

  The kernel runs on a grid of 128 points; each writes a [1, 1, 512, 2048] block holding whole softmax rows, and the blocks tile
  the result (`Proof/BlockSoftmax.lean`, `Proof/ArraySoftmax.lean`); the reference's stages are read one at a time
  (`Proof/RefSoftmax.lean`); what the precondition says of the mask is in `Proof/MaskDomain.lean`. Both end at
  `Cert.MaskedSoftmax.G` of the three argument arrays.
-/
import proofs.«124857_j81570018885750_2_alg».proof.Defs
import proofs.«124857_j81570018885750_2_alg».proof.Proof.Gen.Kernel
import proofs.«124857_j81570018885750_2_alg».proof.Proof.Gen.Kernel.Skeleton
import proofs.«124857_j81570018885750_2_alg».proof.Proof.Gen.Kernel.Launch
import proofs.«124857_j81570018885750_2_alg».proof.Proof.Gen.Kernel.Points
import proofs.«124857_j81570018885750_2_alg».proof.Proof.Gen.Kernel.Frame
import proofs.«124857_j81570018885750_2_alg».proof.Proof.Gen.KernelIdeal
import proofs.«124857_j81570018885750_2_alg».proof.Proof.Gen.KernelIdeal.Skeleton
import proofs.«124857_j81570018885750_2_alg».proof.Proof.Gen.KernelIdeal.Launch
import proofs.«124857_j81570018885750_2_alg».proof.Proof.Gen.KernelIdeal.Points
import proofs.«124857_j81570018885750_2_alg».proof.Proof.Gen.KernelIdeal.Frame
import proofs.«124857_j81570018885750_2_alg».proof.Proof.Gen.ReferenceIdeal
import proofs.«124857_j81570018885750_2_alg».proof.Proof.Gen.Pre_finite_inputs
import proofs.«124857_j81570018885750_2_alg».proof.Proof.Gen.KernelIdeal.Value
import proofs.«124857_j81570018885750_2_alg».proof.Proof.Gen.ReferenceIdeal.Run
import proofs.«124857_j81570018885750_2_alg».proof.Proof.Gen.ReferenceIdeal.Read
import proofs.«124857_j81570018885750_2_alg».proof.Proof.MaskedSoftmax
import proofs.«124857_j81570018885750_2_alg».proof.Proof.MaskDomain
import proofs.«124857_j81570018885750_2_alg».proof.Proof.RefSoftmax
import proofs.«124857_j81570018885750_2_alg».proof.Proof.ArraySoftmax
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the masked row softmax `G` of the (agreeing) argument arrays; the mask is of zeros and ones by
    the precondition. -/
theorem algebraic : Cert.algebraic_KernelIdeal_ReferenceIdeal := by
  intro m ρ m' ρ' hpre hagree
  refine ⟨fun c => Cert.MaskedSoftmax.G
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.ArraySoftmax.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, (hagree c).1, (hagree c).2.1, (hagree c).2.2]
  exact Cert.ReferenceIdeal.RefSoftmax.result_eq _ _ _
    (fun j => Cert.Pre_finite_inputs.MaskDomain.mask_zero_one _ _ _ (hpre c) j)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
